-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S8 : Shape := ⟨1, ![8]⟩
abbrev S16384 : Shape := ⟨1, ![16384]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384 : S_.BroadcastsInDim S16384 (![] : Fin 0 → Fin S16384.rank)
  reducesTo_S16384_S_d0 : S16384.ReducesTo [0] S_
  bcast_S_S8x2048x11264 : S_.BroadcastsInDim S8x2048x11264 (![] : Fin 0 → Fin S8x2048x11264.rank)
  reducesTo_S8x2048x11264_S_d0_1_2 : S8x2048x11264.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn_part1 {F : FTy → Type} [FloatOps F] (main_v13 : IVec S_ 1) (main_v16 : IVec S8x5632x2048 1) : IVec S_ 1 :=
  let main_c_5 : IVec S_ 1 := constantI S_ 1 1#1
  let main_v17 : IVec S_ 1 := (fun x v => Host.reduce IntOp.andi x v reducesTo_S8x5632x2048_S_d0_1_2 h_S_) main_v16 main_c_5
  let main_v18 : IVec S_ 1 := andi main_v13 main_v17
  main_v18

def fn {F : FTy → Type} [FloatOps F] (main_arg0 : FVec F S16384x2048 .f32) (main_arg1 : IVec S8 32) (main_arg2 : FVec F S16384 .f32) (main_arg3 : FVec F S8x2048x11264 .f32) (main_arg4 : FVec F S8x5632x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S8x2048x11264 .f32 := Host.absf main_arg3
  let main_cst_2 : FVec F S_ .f32 := constant S_ .f32 0x7F800000#32
  let main_v10 : FVec F S8x2048x11264 .f32 := broadcastInDim S8x2048x11264 ![] bcast_S_S8x2048x11264 main_cst_2
  let main_v11 : IVec S8x2048x11264 1 := cmpf .olt main_v9 main_v10
  let main_c_3 : IVec S_ 1 := constantI S_ 1 1#1
  let main_v12 : IVec S_ 1 := (fun x v => Host.reduce IntOp.andi x v reducesTo_S8x2048x11264_S_d0_1_2 h_S_) main_v11 main_c_3
  let main_v13 : IVec S_ 1 := andi main_v8 main_v12
  let main_v14 : FVec F S8x5632x2048 .f32 := Host.absf main_arg4
  let main_cst_4 : FVec F S_ .f32 := constant S_ .f32 0x7F800000#32
  let main_v15 : FVec F S8x5632x2048 .f32 := broadcastInDim S8x5632x2048 ![] bcast_S_S8x5632x2048 main_cst_4
  let main_v16 : IVec S8x5632x2048 1 := cmpf .olt main_v14 main_v15
  fn_part1 (F := F) main_v13 main_v16
-- ==== Kernel.lean ====
abbrev S16384x2048 : Shape := ⟨2, ![16384, 2048]⟩
abbrev S8 : Shape := ⟨1, ![8]⟩
abbrev S16384 : Shape := ⟨1, ![16384]⟩
abbrev S8x2048x11264 : Shape := ⟨3, ![8, 2048, 11264]⟩
abbrev S8x5632x2048 : Shape := ⟨3, ![8, 5632, 2048]⟩
abbrev S8x2048x5632 : Shape := ⟨3, ![8, 2048, 5632]⟩
abbrev S8x2048x11x512 : Shape := ⟨4, ![8, 2048, 11, 512]⟩
abbrev S8x2048x11x1x512 : Shape := ⟨5, ![8, 2048, 11, 1, 512]⟩
abbrev S8x2048x11x2x512 : Shape := ⟨5, ![8, 2048, 11, 2, 512]⟩
abbrev S512x2048 : Shape := ⟨2, ![512, 2048]⟩
abbrev S1x2048x1024 : Shape := ⟨3, ![1, 2048, 1024]⟩
abbrev S1x512x2048 : Shape := ⟨3, ![1, 512, 2048]⟩
abbrev S2048x1024 : Shape := ⟨2, ![2048, 1024]⟩
abbrev S512x1024 : Shape := ⟨2, ![512, 1024]⟩
abbrev S512x512 : Shape := ⟨2, ![512, 512]⟩
abbrev S8x2048 : Shape := ⟨2, ![8, 2048]⟩
abbrev S_ : Shape := ⟨0, ![]⟩

abbrev nBuf : Space → Nat
  | .hbm => 23
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S16384, .f32⟩
  | .hbm, ⟨3, _⟩ => ⟨S8x2048x11264, .f32⟩
  | .hbm, ⟨4, _⟩ => ⟨S8x5632x2048, .f32⟩
  | .hbm, ⟨5, _⟩ => ⟨S16384x2048, .bf16⟩
  | .hbm, ⟨6, _⟩ => ⟨S8x5632x2048, .bf16⟩
  | .hbm, ⟨7, _⟩ => ⟨S8x2048x5632, .f32⟩
  | .hbm, ⟨8, _⟩ => ⟨S8x2048x11x512, .f32⟩
  | .hbm, ⟨9, _⟩ => ⟨S8x2048x5632, .f32⟩
  | .hbm, ⟨10, _⟩ => ⟨S8x2048x11x512, .f32⟩
  | .hbm, ⟨11, _⟩ => ⟨S8x2048x11x1x512, .f32⟩
  | .hbm, ⟨12, _⟩ => ⟨S8x2048x11x1x512, .f32⟩
  | .hbm, ⟨13, _⟩ => ⟨S8x2048x11x2x512, .f32⟩
  | .hbm, ⟨14, _⟩ => ⟨S8x2048x11264, .f32⟩
  | .hbm, ⟨15, _⟩ => ⟨S8x2048x11264, .bf16⟩
  | .hbm, ⟨16, _⟩ => ⟨S16384x2048, .f32⟩
  | .hbm, ⟨17, _⟩ => ⟨S8x2048, .f32⟩
  | .hbm, ⟨18, _⟩ => ⟨S_, .f32⟩
  | .hbm, ⟨19, _⟩ => ⟨S8, .f32⟩
  | .hbm, ⟨20, _⟩ => ⟨S_, .f32⟩
  | .hbm, ⟨21, _⟩ => ⟨S8, .f32⟩
  | .hbm, ⟨22, _⟩ => ⟨S8, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x512x2048, .bf16⟩
  | .local _ .vmem, ⟨5, _⟩ => ⟨S1x512x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 11], ![false, false, false]⟩

def k0_cond2 (i : grid0.Coords) : BitVec 1 :=
  let arg2 : BitVec 32 := BitVec.ofNat 32 (i 2).val
  let c10_i32 : BitVec 32 := 10#32
  let v22 : BitVec 1 := Scalar.cmpi .eq arg2 c10_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  slices_S8x2048x11264_S8x2048x5632_0_0_0 : S8x2048x11264.Slices ![0, 0, 0] S8x2048x5632
  shapeCasts_S8x2048x5632_S8x2048x11x512 : S8x2048x5632.ShapeCasts S8x2048x11x512
  slices_S8x2048x11264_S8x2048x5632_0_0_5632 : S8x2048x11264.Slices ![0, 0, 5632] S8x2048x5632
  bcast_S8x2048x11x512_S8x2048x11x1x512_0_1_2_4 : S8x2048x11x512.BroadcastsInDim S8x2048x11x1x512 (![0, 1, 2, 4] : Fin 4 → Fin S8x2048x11x1x512.rank)
  concatenates_S8x2048x11x1x512_S8x2048x11x1x512_S8x2048x11x2x512_d3 : Shape.Concatenates [S8x2048x11x1x512, S8x2048x11x1x512] S8x2048x11x2x512 3
  shapeCasts_S8x2048x11x2x512_S8x2048x11264 : S8x2048x11x2x512.ShapeCasts S8x2048x11264
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  slices_S512x1024_o0_0_S512x512 : S512x1024.Slices ![0, 0] S512x512
  slices_S512x1024_o0_512_S512x512 : S512x1024.Slices ![0, 512] S512x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S16384_S8x2048 : S16384.ShapeCasts S8x2048
  reducesTo_S8x2048_S8_d1 : S8x2048.ReducesTo [1] S8
  h_S_ : 0 < S_.numel
  bcast_S_S8 : S_.BroadcastsInDim S8 (![] : Fin 0 → Fin S8.rank)
  dot_S512x2048_S2048x1024_S512x1024_1_0_0_1_n_n_wf : DotDims.WF S512x2048 S2048x1024 S512x1024 [1] [0] [0] [1] [] []
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .bf16 = 32 ∨ (Rect.block (s := S16384x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S8x2048x11264.size a
  hwx0_1 : ∀ i : grid0.Coords, EltTy.bits .bf16 = 32 ∨ (Rect.block (s := S8x2048x11264) S1x2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x2048.size a ≤ S8x5632x2048.size a
  hwx0_2 : ∀ i : grid0.Coords, EltTy.bits .bf16 = 32 ∨ (Rect.block (s := S8x5632x2048) S1x512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x2048 : Shape := ⟨2, ![16384, 2048]⟩
abbrev S8 : Shape := ⟨1, ![8]⟩
abbrev S16384 : Shape := ⟨1, ![16384]⟩
abbrev S8x2048x11264 : Shape := ⟨3, ![8, 2048, 11264]⟩
abbrev S8x5632x2048 : Shape := ⟨3, ![8, 5632, 2048]⟩
abbrev S8x2048x2048 : Shape := ⟨3, ![8, 2048, 2048]⟩
abbrev S8x2048x5632 : Shape := ⟨3, ![8, 2048, 5632]⟩
abbrev S_ : Shape := ⟨0, ![]⟩
abbrev S8x2048 : Shape := ⟨2, ![8, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8, .i32⟩
  | .hbm, ⟨2, _⟩ => ⟨S16384, .f32⟩
  | .hbm, ⟨3, _⟩ => ⟨S8x2048x11264, .f32⟩
  | .hbm, ⟨4, _⟩ => ⟨S8x5632x2048, .f32⟩
  | .hbm, ⟨5, _⟩ => ⟨S8x2048x2048, .f32⟩
  | .hbm, ⟨6, _⟩ => ⟨S8x2048x11264, .f32⟩
  | .hbm, ⟨7, _⟩ => ⟨S8x2048x5632, .f32⟩
  | .hbm, ⟨8, _⟩ => ⟨S8x2048x5632, .f32⟩
  | .hbm, ⟨9, _⟩ => ⟨S8x2048x5632, .f32⟩
  | .hbm, ⟨10, _⟩ => ⟨S8x2048x5632, .f32⟩
  | .hbm, ⟨11, _⟩ => ⟨S_, .f32⟩
  | .hbm, ⟨12, _⟩ => ⟨S8x2048x5632, .f32⟩
  | .hbm, ⟨13, _⟩ => ⟨S8x2048x5632, .f32⟩
  | .hbm, ⟨14, _⟩ => ⟨S_, .f32⟩
  | .hbm, ⟨15, _⟩ => ⟨S8x2048x5632, .f32⟩
  | .hbm, ⟨16, _⟩ => ⟨S8x2048x5632, .f32⟩
  | .hbm, ⟨17, _⟩ => ⟨S8x2048x5632, .f32⟩
  | .hbm, ⟨18, _⟩ => ⟨S8x2048x5632, .f32⟩
  | .hbm, ⟨19, _⟩ => ⟨S8x2048x2048, .f32⟩
  | .hbm, ⟨20, _⟩ => ⟨S16384x2048, .f32⟩
  | .hbm, ⟨21, _⟩ => ⟨S8x2048, .f32⟩
  | .hbm, ⟨22, _⟩ => ⟨S_, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]

class Facts₀ : Prop where
  shapeCasts_S16384x2048_S8x2048x2048 : S16384x2048.ShapeCasts S8x2048x2048
  slices_S8x2048x11264_S8x2048x5632_0_0_0 : S8x2048x11264.Slices ![0, 0, 0] S8x2048x5632
  slices_S8x2048x11264_S8x2048x5632_0_0_5632 : S8x2048x11264.Slices ![0, 0, 5632] S8x2048x5632
  bcast_S_S8x2048x5632 : S_.BroadcastsInDim S8x2048x5632 (![] : Fin 0 → Fin S8x2048x5632.rank)
  shapeCasts_S8x2048x2048_S16384x2048 : S8x2048x2048.ShapeCasts S16384x2048
  shapeCasts_S16384_S8x2048 : S16384.ShapeCasts S8x2048
  reducesTo_S8x2048_S8_d1 : S8x2048.ReducesTo [1] S8
  h_S_ : 0 < S_.numel
  bcast_S_S8 : S_.BroadcastsInDim S8 (![] : Fin 0 → Fin S8.rank)
  dot_S8x2048x2048_S8x2048x11264_S8x2048x11264_2_1_1_2_0_0_wf : DotDims.WF S8x2048x2048 S8x2048x11264 S8x2048x11264 [2] [1] [1] [2] [0] [0]
  dot_S8x2048x5632_S8x5632x2048_S8x2048x2048_2_1_1_2_0_0_wf : DotDims.WF S8x2048x5632 S8x5632x2048 S8x2048x2048 [2] [1] [1] [2] [0] [0]

variable [Facts₀]

def dot_S8x2048x2048_S8x2048x11264_S8x2048x11264_2_1_1_2_0_0 : DotDims S8x2048x2048 S8x2048x11264 S8x2048x11264 where
  lhsContracting := [2]
  rhsContracting := [1]
  lhsNonContracting := [1]
  rhsNonContracting := [2]
  lhsBatch := [0]
  rhsBatch := [0]
  wf := dot_S8x2048x2048_S8x2048x11264_S8x2048x11264_2_1_1_2_0_0_wf
def dot_S8x2048x5632_S8x5632x2048_S8x2048x2048_2_1_1_2_0_0 : DotDims S8x2048x5632 S8x5632x2048 S8x2048x2048 where
  lhsContracting := [2]
  rhsContracting := [1]
  lhsNonContracting := [1]
  rhsNonContracting := [2]
  lhsBatch := [0]
  rhsBatch := [0]
  wf := dot_S8x2048x5632_S8x5632x2048_S8x2048x2048_2_1_1_2_0_0_wf

class Facts : Prop extends Facts₀ where

variable [Facts]
-- ==== Proof.Pieces.lean ====
/-
  What one grid point leaves behind, case by case.

  At a grid point the body adds one hidden-dimension tile's contribution to the accumulator: from the token block `x`,
  the tile's gate/up weight columns `wgu` and the tile's down-projection rows `w2` it computes
  `upd(x, wgu, w2, acc) = acc + (silu(x · gate) * (x · up)) · w2` and stores it over the accumulator. At the first
  tile of a token block the accumulator is first set to zero, so the point leaves `upd(x, wgu, w2, 0)`; at a middle tile it
  leaves `upd` of what the tile before left; at the last tile it leaves the same in the accumulator AND copies it to the
  output block. Each statement below says exactly this about the contents a point leaves, for any float semantics.
-/
import proofs.«112218_j58772332479042_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile: the accumulator ends at the update of what it held. -/
theorem acc_mid (c : Dev nD) (i : grid0.Coords) (arg3 : Memref sig .tc .vmem S512x2048 .bf16) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : ¬cond0_1 i)
    (x0 : Vec F S512x2048 .bf16) (x1 : Vec F S1x2048x1024 .bf16) (x2 : Vec F S1x512x2048 .bf16) (xs0 : Vec F S512x2048 .f32) :
    sout0_B_0 c i arg3 harg3 arg4 harg4 arg5 harg5 arg6 harg6 arg7 harg7 hc0 hc1 x0 x1 x2 xs0 = k0_pay2 x0 x1 x2 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  rw [View.canon_unit_zero hz2]
  simp only [View.readAt_eq_ld, harg3.read_unread, harg4.read_unread, harg5.read_unread, harg6.read_unread, harg7.read_unread, View.ld_unit_zero (S := S512x2048) hz2, View.ld_unit_zero (S := S1x2048x1024) hz3, View.ld_unit_zero (S := S1x512x2048) hz3]

/-- The last tile: the accumulator ends at the update of what it held, -/
theorem acc_last (c : Dev nD) (i : grid0.Coords) (arg3 : Memref sig .tc .vmem S512x2048 .bf16) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S1x2048x1024 .bf16) (x2 : Vec F S1x512x2048 .bf16) (xs0 : Vec F S512x2048 .f32) :
    sout0_C_0 c i arg3 harg3 arg4 harg4 arg5 harg5 arg6 harg6 arg7 harg7 hc0 hc1 x0 x1 x2 xs0 = k0_pay2 x0 x1 x2 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg6.read_unread, harg7.read_unread, View.ld_unit_zero (S := S512x2048) hz2, View.ld_unit_zero (S := S1x2048x1024) hz3, View.ld_unit_zero (S := S1x512x2048) hz3]

/-- and the output block is a copy of it. -/
theorem out_last (c : Dev nD) (i : grid0.Coords) (arg3 : Memref sig .tc .vmem S512x2048 .bf16) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S512x2048 .f32) (harg6 : arg6.IsWhole) (arg7 : Memref sig .tc .vmem S512x2048 .f32) (harg7 : arg7.IsWhole) (hc0 : ¬cond0_0 i) (hc1 : cond0_1 i)
    (x0 : Vec F S512x2048 .bf16) (x1 : Vec F S1x2048x1024 .bf16) (x2 : Vec F S1x512x2048 .bf16) (xs0 : Vec F S512x2048 .f32) :
    out0_C_3 c i arg3 harg3 arg4 harg4 arg5 harg5 arg6 harg6 arg7 harg7 hc0 hc1 x0 x1 x2 xs0 = k0_pay2 x0 x1 x2 xs0 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz2, View.readCov_unit_zero (S := S512x2048) _ hz2]
  simp only [View.readAt_eq_ld, harg3.read_unread, harg4.read_unread, harg5.read_unread, harg6.read_unread, harg7.read_unread, View.ld_unit_zero (S := S512x2048) hz2, View.ld_unit_zero (S := S1x2048x1024) hz3, View.ld_unit_zero (S := S1x512x2048) hz3]

/-- The first tile: the accumulator is zeroed, then updated. -/
theorem acc_first (c : Dev nD) (i : grid0.Coords) (arg3 : Memref sig .tc .vmem S512x2048 .bf16) (harg3 : arg3.IsWhole) (arg4 : Memref sig .tc .vmem S1x2048x1024 .bf16) (harg4 : arg4.IsWhole) (arg5 : Memref sig .tc .vmem S1x512x2048 .bf16) (harg5 : arg5.IsWhole) (arg6 : Memref sig .tc .vmem S512x2048 .f32) (harg6 : arg6.IsWhole) (arg7 : Memref sig .tc .vmem S512x2048 .f32) (harg7 : arg7.IsWhole) (hc0 : cond0_0 i) (hc1 : ¬cond0_1 i)
    (x0 : Vec F S512x2048 .bf16) (x1 : Vec F S1x2048x1024 .bf16) (x2 : Vec F S1x512x2048 .bf16) :
    sout0_A_0 c i arg3 harg3 arg4 harg4 arg5 harg5 arg6 harg6 arg7 harg7 hc0 hc1 x0 x1 x2 = k0_pay2 x0 x1 x2 k0_pay1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S512x2048) hz2, View.readCov_unit_zero (S := S512x2048) _ hz2]
  simp only [View.readAt_eq_ld, harg3.read_unread, harg4.read_unread, harg5.read_unread, harg6.read_unread, harg7.read_unread, View.ld_unit_zero (S := S512x2048) hz2, View.ld_unit_zero (S := S1x2048x1024) hz3, View.ld_unit_zero (S := S1x512x2048) hz3]

end Cert.KernelIdeal.Pieces
end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibTileSum.lean ====
/-
  Sums over an index range cut into tiles of equal width.

  An index `h < T * w` is `j * w + n` for one tile `j < T` and one offset `n < w`, so a sum over all `h` is the sum over
  the tiles of the sums inside each tile. The partial sums over the tiles `0, …, hh` start at the first tile's sum, grow by
  one tile's sum at a time, and are the whole sum once `hh` is the last tile. Both hold in any commutative additive
  monoid: only the order and the grouping of the terms change.
-/
import Mathlib.Algebra.BigOperators.Fin
import Mathlib.Algebra.BigOperators.Group.Finset.Basic
import Mathlib.Logic.Equiv.Fin.Basic
import Mathlib.Tactic.Ring

namespace Cert.TileSum

variable {M : Type*} [AddCommMonoid M]

/-- The index of offset `n` inside tile `j`. -/
def tileIdx {T w N : ℕ} (hN : N = T * w) (j : Fin T) (n : Fin w) : Fin N :=
  ⟨j.val * w + n.val, by
    have h1 := j.isLt; have h2 := n.isLt
    have : j.val * w + w ≤ T * w := by
      rw [← Nat.succ_mul]; exact Nat.mul_le_mul_right w h1
    omega⟩

@[simp] theorem tileIdx_val {T w N : ℕ} (hN : N = T * w) (j : Fin T) (n : Fin w) :
    (tileIdx hN j n).val = j.val * w + n.val := rfl

/-- A sum over all indices is the sum, over the tiles, of the sums inside each tile. -/
theorem sum_tiles {T w N : ℕ} (hN : N = T * w) (f : Fin N → M) :
    ∑ h : Fin N, f h = ∑ j : Fin T, ∑ n : Fin w, f (tileIdx hN j n) := by
  subst hN
  rw [← Equiv.sum_comp finProdFinEquiv f, Fintype.sum_prod_type]
  refine Finset.sum_congr rfl fun j _ => Finset.sum_congr rfl fun n _ => congrArg f (Fin.ext ?_)
  simp [finProdFinEquiv, tileIdx, Nat.mul_comm, Nat.add_comm]

/-- The sum of the tile values `D j` over the tiles `j ≤ hh`. -/
def upTo {T : ℕ} (D : Fin T → M) (hh : ℕ) : M := ∑ j : Fin T, if j.val ≤ hh then D j else 0

theorem upTo_zero {T : ℕ} (D : Fin T → M) (hT : 0 < T) : upTo D 0 = D ⟨0, hT⟩ := by
  unfold upTo
  rw [Finset.sum_eq_single (⟨0, hT⟩ : Fin T)]
  · simp
  · intro j _ hj
    have : ¬ j.val ≤ 0 := fun h => hj (Fin.ext (by simpa using h))
    simp [this]
  · intro h; exact absurd (Finset.mem_univ _) h

theorem upTo_succ {T : ℕ} (D : Fin T → M) (hh : ℕ) (h : hh + 1 < T) :
    upTo D (hh + 1) = upTo D hh + D ⟨hh + 1, h⟩ := by
  unfold upTo
  have e : ∀ j : Fin T, (if j.val ≤ hh + 1 then D j else 0)
      = (if j.val ≤ hh then D j else 0) + (if j = ⟨hh + 1, h⟩ then D j else 0) := by
    intro j
    by_cases h1 : j.val ≤ hh
    · have h2 : j ≠ ⟨hh + 1, h⟩ := fun e => by
        have e' : j.val = hh + 1 := congrArg Fin.val e
        omega
      rw [if_pos h1, if_pos (Nat.le_succ_of_le h1), if_neg h2, add_zero]
    · by_cases h2 : j = ⟨hh + 1, h⟩
      · have h3 : j.val ≤ hh + 1 := by
          have e' : j.val = hh + 1 := congrArg Fin.val h2
          omega
        rw [if_neg h1, if_pos h3, if_pos h2, zero_add]
      · have h3 : ¬ j.val ≤ hh + 1 := fun h3 => h2 (Fin.ext (by show j.val = hh + 1; omega))
        rw [if_neg h1, if_neg h3, if_neg h2, add_zero]
  simp only [e, Finset.sum_add_distrib, Finset.sum_ite_eq', Finset.mem_univ, if_true]

theorem upTo_last {T : ℕ} (D : Fin T → M) (hh : ℕ) (h : T ≤ hh + 1) : upTo D hh = ∑ j : Fin T, D j := by
  unfold upTo
  refine Finset.sum_congr rfl fun j _ => if_pos ?_
  have := j.isLt; omega

end Cert.TileSum
-- ==== Proof.Spec.lean ====
/-
  The gated feed-forward layer of a balanced mixture of experts, as one function of the argument arrays.

  Tokens are sorted by expert in groups of 2048: token `T` belongs to expert `e = T / 2048`. With `x` the token's row of
  2048 features, `W13[e]` the expert's 2048 × 11264 gate/up weights (gate columns `0 … 5631`, up columns `5632 … 11263`) and
  `W2[e]` its 5632 × 2048 down-projection,

      out[T, d] = Σ_h  silu(x · W13[e][:, h]) * (x · W13[e][:, 5632 + h]) * W2[e][h, d],      silu(g) = g * 1 / (1 + exp(-g)).

  Everything is over the extended reals. The sum over the hidden index `h` may be grouped into 11 tiles of 512: only
  commutativity and associativity of addition are used, so no finiteness of the inputs is needed.
-/
import Idealize.ShloMosaic.PureOps.Ideal.Laws
import Idealize.ShloMosaic.Lib.ValueIdx
import proofs.«112218_j58772332479042_2_alg».proof.Proof.LibTileSum

noncomputable section

namespace Cert.Ffn

open Idealize.ShloMosaic Idealize.ShloMosaic.ValueIdx Cert.TileSum

/-- The gated activation `silu(g) * u`, the logistic function being `1 / (1 + exp(-g))` on the extended reals. -/
def act (g u : EReal) : EReal := g * Ideal.logistic g * u

/-- The single-precision pattern of `1.0` denotes the real number one. -/
theorem one_bits : Ideal.ofBits .f32 0x3F800000#32 = 1 := by
  simp [Ideal.ofBits, Ideal.ieee, -EReal.coe_mul]; norm_num

/-- The logistic function spelt out with the literal `1.0`, negation, exponential, sum and quotient, is the logistic
    function. -/
theorem act_spelt (g u : EReal) :
    g * Ideal.div (Ideal.ofBits .f32 0x3F800000#32) (Ideal.ofBits .f32 0x3F800000#32 + Ideal.exp (-g)) * u = act g u := by
  rw [one_bits]; rfl

/-- Token `T`'s expert. -/
abbrev expertOf (T : Fin 16384) : Fin 8 := ⟨T.val / 2048, by have := T.isLt; omega⟩
/-- Hidden index `h`'s gate column and up column in the gate/up weights. -/
abbrev gateCol (h : Fin 5632) : Fin 11264 := ⟨h.val, by have := h.isLt; omega⟩
abbrev upCol (h : Fin 5632) : Fin 11264 := ⟨5632 + h.val, by have := h.isLt; omega⟩

variable (X : (⟨2, ![16384, 2048]⟩ : Shape).Idx → EReal) (W13 : (⟨3, ![8, 2048, 11264]⟩ : Shape).Idx → EReal)
  (W2 : (⟨3, ![8, 5632, 2048]⟩ : Shape).Idx → EReal)

/-- `x · W13[e][:, h]` and `x · W13[e][:, 5632 + h]`. -/
def gate (T : Fin 16384) (h : Fin 5632) : EReal := ∑ k : Fin 2048, X (ix2 T k) * W13 (ix3 (expertOf T) k (gateCol h))
def up (T : Fin 16384) (h : Fin 5632) : EReal := ∑ k : Fin 2048, X (ix2 T k) * W13 (ix3 (expertOf T) k (upCol h))

/-- Hidden index `h`'s contribution to `out[T, d]`. -/
def term (T : Fin 16384) (d : Fin 2048) (h : Fin 5632) : EReal :=
  act (gate X W13 T h) (up X W13 T h) * W2 (ix3 (expertOf T) h d)

/-- The layer's output. -/
def out : (⟨2, ![16384, 2048]⟩ : Shape).Idx → EReal := fun i => ∑ h : Fin 5632, term X W13 W2 (i 0) (i 1) h

theorem tiles : 5632 = 11 * 512 := by norm_num

/-- The contribution of tile `j` of the hidden indices, `512 j … 512 j + 511`. -/
def tileTerm (T : Fin 16384) (d : Fin 2048) (j : Fin 11) : EReal :=
  ∑ n : Fin 512, term X W13 W2 T d (tileIdx tiles j n)

/-- The output is the sum of the eleven tiles' contributions. -/
theorem out_eq_tiles (i : (⟨2, ![16384, 2048]⟩ : Shape).Idx) :
    out X W13 W2 i = ∑ j : Fin 11, tileTerm X W13 W2 (i 0) (i 1) j :=
  sum_tiles tiles _

end Cert.Ffn

end
-- ==== Proof.Payload.lean ====
/-
  One grid point's arithmetic, read at a coordinate over the extended reals.

  From a block `x` of 512 token rows, a tile `wgu = [gate | up]` of 2048 × (512 + 512) weight columns and a tile `w2` of
  512 × 2048 down-projection rows, the body forms `gu = x · wgu`, the hidden block
  `hid[r, n] = silu(gu[r, n]) * gu[r, 512 + n]`, and adds `hid · w2` to the accumulator. A matrix product into a zero
  accumulator is, entry by entry, the plain sum over the contracted coordinate; a change of float format is the identity.
  So the new accumulator at `(r, d)` is the old one plus `Σ_n act(Σ_k x[r,k] wgu[k,n], Σ_k x[r,k] wgu[k,512+n]) * w2[n, d]`.
-/
import proofs.«112218_j58772332479042_2_alg».proof.Proof.Gen.KernelIdeal.Skeleton
import proofs.«112218_j58772332479042_2_alg».proof.Proof.LibColumnBlocks
import proofs.«112218_j58772332479042_2_alg».proof.Proof.Spec
import Idealize.ShloMosaic.Lib.Pipeline.Value
import Idealize.ShloMosaic.Lib.ValueLayout

noncomputable section

namespace Cert.KernelIdeal.Payload

open Idealize.ShloMosaic Idealize.ShloMosaic.ValueIdx Cert.KernelIdeal Cert.KernelIdeal.Gen Cert.Ffn

/-! ## The two products' dimension records: which coordinate of the result indexes which operand -/

theorem gu_rows (j : S512x1024.Idx) (k : dot_S512x2048_S2048x1024_S512x1024_1_0_0_1_n_n.contr.Idx) : (dot_S512x2048_S2048x1024_S512x1024_1_0_0_1_n_n.lhsIdx j k 0).val = (j 0).val := by
  unfold DotDims.lhsIdx
  rw [dif_neg (show ¬(0 : Fin S512x2048.rank) ∈ dot_S512x2048_S2048x1024_S512x1024_1_0_0_1_n_n.lhsBatch by decide), dif_pos (show (0 : Fin S512x2048.rank) ∈ dot_S512x2048_S2048x1024_S512x1024_1_0_0_1_n_n.lhsNonContracting by decide)]
  rfl
theorem gu_cols (j : S512x1024.Idx) (k : dot_S512x2048_S2048x1024_S512x1024_1_0_0_1_n_n.contr.Idx) : (dot_S512x2048_S2048x1024_S512x1024_1_0_0_1_n_n.rhsIdx j k 1).val = (j 1).val := by
  unfold DotDims.rhsIdx
  rw [dif_neg (show ¬(1 : Fin S2048x1024.rank) ∈ dot_S512x2048_S2048x1024_S512x1024_1_0_0_1_n_n.rhsBatch by decide), dif_pos (show (1 : Fin S2048x1024.rank) ∈ dot_S512x2048_S2048x1024_S512x1024_1_0_0_1_n_n.rhsNonContracting by decide)]
  rfl
theorem down_rows (j : S512x2048.Idx) (k : dot_S512x512_S512x2048_S512x2048_1_0_0_1_n_n.contr.Idx) : (dot_S512x512_S512x2048_S512x2048_1_0_0_1_n_n.lhsIdx j k 0).val = (j 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem down_cols (j : S512x2048.Idx) (k : dot_S512x512_S512x2048_S512x2048_1_0_0_1_n_n.contr.Idx) : (dot_S512x512_S512x2048_S512x2048_1_0_0_1_n_n.rhsIdx j k 1).val = (j 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

variable (x0 : Vec Ideal S512x2048 .bf16) (x1 : Vec Ideal S1x2048x1024 .bf16) (x2 : Vec Ideal S1x512x2048 .bf16)
  (acc : Vec Ideal S512x2048 .f32)

/-- `gu = x · [gate | up]`. -/
def gu : FVec Ideal S512x1024 .f32 :=
  matmul dot_S512x2048_S2048x1024_S512x1024_1_0_0_1_n_n none (shapeCast S512x2048 x0 shapeCasts_S512x2048_S512x2048 : FVec Ideal S512x2048 .bf16)
    (shapeCast S2048x1024 x1 shapeCasts_S1x2048x1024_S2048x1024 : FVec Ideal S2048x1024 .bf16) (constant S512x1024 .f32 0x00000000#32)

theorem gu_apply (r : Fin 512) (cc : Fin 1024) :
    gu x0 x1 (ix2 r cc) = ∑ k : Fin 2048, x0 (ix2 r k) * x1 (ix3 (0 : Fin 1) k cc) := by
  unfold gu
  refine (Cert.LibColumnBlocks.matmul_zero_apply dot_S512x2048_S2048x1024_S512x1024_1_0_0_1_n_n rfl rfl rfl rfl gu_rows gu_cols _ _ r cc none).trans ?_
  refine Finset.sum_congr rfl fun k _ => ?_
  rw [shapeCast_self, shapeCast_1ab_ab_apply]

/-- The hidden block: `silu` of the gate half times the up half. -/
def hid : FVec Ideal S512x512 .f32 :=
  mulf (mulf (extractStridedSlice S512x512 ![0, 0] (gu x0 x1) slices_S512x1024_o0_0_S512x512)
      (logistic (extractStridedSlice S512x512 ![0, 0] (gu x0 x1) slices_S512x1024_o0_0_S512x512)))
    (extractStridedSlice S512x512 ![0, 512] (gu x0 x1) slices_S512x1024_o0_512_S512x512)

/-- Column `n` of the gate half and of the up half of a tile. -/
abbrev gHalf (n : Fin 512) : Fin 1024 := ⟨n.val, by have := n.isLt; omega⟩
abbrev uHalf (n : Fin 512) : Fin 1024 := ⟨512 + n.val, by have := n.isLt; omega⟩

/-- The gate half and the up half of a product block, read at a coordinate. -/
theorem slice_gate (y : S512x1024.Idx → EReal) (r n : Fin 512) :
    extractStridedSlice S512x512 ![0, 0] y slices_S512x1024_o0_0_S512x512 (ix2 r n) = y (ix2 r (gHalf n)) :=
  extractStridedSlice_apply ![0, 0] y slices_S512x1024_o0_0_S512x512 (ix2 r n) (ix2 r (gHalf n)) (fun a => by
    match a with
    | ⟨0, _⟩ => show r.val = 0 + r.val; omega
    | ⟨1, _⟩ => show n.val = 0 + n.val; omega)
theorem slice_up (y : S512x1024.Idx → EReal) (r n : Fin 512) :
    extractStridedSlice S512x512 ![0, 512] y slices_S512x1024_o0_512_S512x512 (ix2 r n) = y (ix2 r (uHalf n)) :=
  extractStridedSlice_apply ![0, 512] y slices_S512x1024_o0_512_S512x512 (ix2 r n) (ix2 r (uHalf n)) (fun a => by
    match a with
    | ⟨0, _⟩ => show r.val = 0 + r.val; omega
    | ⟨1, _⟩ => show 512 + n.val = 512 + n.val; rfl)

/-- The gating, entry by entry. -/
theorem gated_apply (a b : FVec Ideal S512x512 .f32) (i : S512x512.Idx) :
    mulf (mulf a (logistic a)) b i = act (a i) (b i) := rfl

theorem hid_apply (r n : Fin 512) :
    hid x0 x1 (ix2 r n) = act (∑ k : Fin 2048, x0 (ix2 r k) * x1 (ix3 (0 : Fin 1) k (gHalf n)))
      (∑ k : Fin 2048, x0 (ix2 r k) * x1 (ix3 (0 : Fin 1) k (uHalf n))) := by
  unfold hid
  rw [gated_apply, slice_gate, slice_up, gu_apply, gu_apply]

/-- The body's stored value, in this vocabulary. -/
theorem pay2_eq : k0_pay2 (F := Ideal) x0 x1 x2 acc
    = shapeCast S512x2048 (addf (acc : FVec Ideal S512x2048 .f32) (matmul dot_S512x512_S512x2048_S512x2048_1_0_0_1_n_n none (truncf .bf16 (hid x0 x1) bitsLt_bf16_f32 : FVec Ideal S512x512 .bf16)
        (shapeCast S512x2048 x2 shapeCasts_S1x512x2048_S512x2048 : FVec Ideal S512x2048 .bf16) (constant S512x2048 .f32 0x00000000#32)))
      shapeCasts_S512x2048_S512x2048 := rfl

/-- The new accumulator at `(r, d)`: the old one plus the tile's contribution. -/
theorem upd_apply (r : Fin 512) (d : Fin 2048) :
    k0_pay2 (F := Ideal) x0 x1 x2 acc (ix2 r d)
      = acc (ix2 r d) + ∑ n : Fin 512, act (∑ k : Fin 2048, x0 (ix2 r k) * x1 (ix3 (0 : Fin 1) k (gHalf n)))
          (∑ k : Fin 2048, x0 (ix2 r k) * x1 (ix3 (0 : Fin 1) k (uHalf n))) * x2 (ix3 (0 : Fin 1) n d) := by
  rw [pay2_eq, shapeCast_self, addf_apply]
  refine congrArg (acc (ix2 r d) + ·) ?_
  refine (Cert.LibColumnBlocks.matmul_zero_apply dot_S512x512_S512x2048_S512x2048_1_0_0_1_n_n rfl rfl rfl rfl down_rows down_cols _ _ r d none).trans ?_
  refine Finset.sum_congr rfl fun n _ => ?_
  rw [truncf_apply, hid_apply, shapeCast_1ab_ab_apply]

/-- The zero block the accumulator is reset to. -/
theorem zero_apply (i : S512x2048.Idx) : k0_pay1 (F := Ideal) i = 0 := by
  unfold k0_pay1
  rw [shapeCast_self]
  exact Ideal.ofBits_zero_f32

end Cert.KernelIdeal.Payload

end
-- ==== Proof.Interleave.lean ====
/-
  The gate and up weight columns interleaved tile by tile.

  The gate/up weights `W` of shape [8, 2048, 11264] hold, for each expert and input feature, 5632 gate columns followed by
  5632 up columns. Before the grid runs they are rearranged so that the 1024 columns `1024 j … 1024 j + 1023` hold tile
  `j`'s 512 gate columns followed by tile `j`'s 512 up columns: each half is cut into 11 tiles of 512, a unit axis is
  added, the two are joined along it, and the result is flattened back to 11264 columns. Read at a coordinate:

      rearranged[e, k, 1024 j + n]       = W[e, k, 512 j + n]             (a gate column)
      rearranged[e, k, 1024 j + 512 + n] = W[e, k, 5632 + 512 j + n]      (an up column)

  The statements hold for arrays of any element type: only positions move.
-/
import proofs.«112218_j58772332479042_2_alg».proof.Proof.Gen.KernelIdeal
import Idealize.ShloMosaic.Lib.Pipeline.Value
import Idealize.ShloMosaic.Lib.ValueIdx

noncomputable section

namespace Cert.KernelIdeal.Interleave

open Idealize.ShloMosaic Idealize.ShloMosaic.ValueIdx Cert.KernelIdeal Cert.KernelIdeal.Gen

variable {α : Type}

/-- One half of the weights (columns `off … off + 5631`) cut into tiles, with a unit axis before the column-in-tile axis. -/
def half (off : Fin 3 → Nat) (hs : S8x2048x11264.Slices off S8x2048x5632) (W : S8x2048x11264.Idx → α) :
    S8x2048x11x1x512.Idx → α :=
  broadcastInDim S8x2048x11x1x512 ![0, 1, 2, 4] bcast_S8x2048x11x512_S8x2048x11x1x512_0_1_2_4
    (shapeCast S8x2048x11x512 (extractStridedSlice S8x2048x5632 off W hs) shapeCasts_S8x2048x5632_S8x2048x11x512)

/-- The rearranged weights. -/
def wgu (W : S8x2048x11264.Idx → α) : S8x2048x11264.Idx → α :=
  shapeCast S8x2048x11264
    (concatenate S8x2048x11x2x512 3
      [⟨S8x2048x11x1x512, half ![0, 0, 0] slices_S8x2048x11264_S8x2048x5632_0_0_0 W⟩,
       ⟨S8x2048x11x1x512, half ![0, 0, 5632] slices_S8x2048x11264_S8x2048x5632_0_0_5632 W⟩]
      concatenates_S8x2048x11x1x512_S8x2048x11x1x512_S8x2048x11x2x512_d3)
    shapeCasts_S8x2048x11x2x512_S8x2048x11264

/-- A half at `(e, k, j, 0, n)` is the weights at column `off + 512 j + n`. -/
theorem half_apply (off : Fin 3 → Nat) (hs : S8x2048x11264.Slices off S8x2048x5632) (W : S8x2048x11264.Idx → α)
    (h0 : off 0 = 0) (h1 : off 1 = 0) (e : Fin 8) (k : Fin 2048) (j : Fin 11) (n : Fin 512) (col : Fin 11264)
    (hcol : col.val = off 2 + (j.val * 512 + n.val)) :
    half off hs W (ix5 e k j (0 : Fin 1) n) = W (ix3 e k col) := by
  have hn := n.isLt; have hj := j.isLt
  unfold half
  rw [broadcastInDim_apply ![0, 1, 2, 4] bcast_S8x2048x11x512_S8x2048x11x1x512_0_1_2_4 _ (ix5 e k j (0 : Fin 1) n) (ix4 e k j n)
    (fun a => by
      match a with
      | ⟨0, _⟩ => rfl
      | ⟨1, _⟩ => rfl
      | ⟨2, _⟩ => rfl
      | ⟨3, _⟩ => rfl)]
  rw [shapeCast_apply _ shapeCasts_S8x2048x5632_S8x2048x11x512 (ix4 e k j n)
    (ix3 e k (⟨j.val * 512 + n.val, by omega⟩ : Fin 5632))
    (by rw [Shape.rowMajor_val_three, Shape.rowMajor_val_four]
        show (e.val * 2048 + k.val) * 5632 + (j.val * 512 + n.val) = ((e.val * 2048 + k.val) * 11 + j.val) * 512 + n.val
        ring)]
  exact extractStridedSlice_apply off W hs (ix3 e k (⟨j.val * 512 + n.val, by omega⟩ : Fin 5632)) (ix3 e k col) (fun a => by
    match a with
    | ⟨0, _⟩ => show e.val = off 0 + e.val; omega
    | ⟨1, _⟩ => show k.val = off 1 + k.val; omega
    | ⟨2, _⟩ => show col.val = off 2 + (j.val * 512 + n.val); exact hcol)

/-- The flattening: column `1024 j + 512 s + n` is position `(j, s, n)`. -/
theorem wgu_unflatten (W : S8x2048x11264.Idx → α) (e : Fin 8) (k : Fin 2048) (j : Fin 11) (s : Fin 2) (n : Fin 512)
    (col : Fin 11264) (hcol : col.val = j.val * 1024 + s.val * 512 + n.val) :
    wgu W (ix3 e k col)
      = concatenate S8x2048x11x2x512 3
          [⟨S8x2048x11x1x512, half ![0, 0, 0] slices_S8x2048x11264_S8x2048x5632_0_0_0 W⟩,
           ⟨S8x2048x11x1x512, half ![0, 0, 5632] slices_S8x2048x11264_S8x2048x5632_0_0_5632 W⟩]
          concatenates_S8x2048x11x1x512_S8x2048x11x1x512_S8x2048x11x2x512_d3 (ix5 e k j s n) := by
  unfold wgu
  exact shapeCast_apply _ shapeCasts_S8x2048x11x2x512_S8x2048x11264 (ix3 e k col) (ix5 e k j s n)
    (by rw [Shape.rowMajor_val_five, Shape.rowMajor_val_three]
        show (((e.val * 2048 + k.val) * 11 + j.val) * 2 + s.val) * 512 + n.val = (e.val * 2048 + k.val) * 11264 + col.val
        rw [hcol]; ring)

/-- A gate column of tile `j`. -/
theorem wgu_gate (W : S8x2048x11264.Idx → α) (e : Fin 8) (k : Fin 2048) (j : Fin 11) (n : Fin 512)
    (col src : Fin 11264) (hcol : col.val = j.val * 1024 + n.val) (hsrc : src.val = j.val * 512 + n.val) :
    wgu W (ix3 e k col) = W (ix3 e k src) := by
  rw [wgu_unflatten W e k j (0 : Fin 2) n col (by rw [hcol]; show _ = j.val * 1024 + 0 * 512 + n.val; omega)]
  rw [concatenate_pair_apply_left 3 _ _ concatenates_S8x2048x11x1x512_S8x2048x11x1x512_S8x2048x11x2x512_d3
    (ix5 e k j (0 : Fin 2) n) rfl (ix5 e k j (0 : Fin 1) n) (fun b => by
      match b with
      | ⟨0, _⟩ => rfl
      | ⟨1, _⟩ => rfl
      | ⟨2, _⟩ => rfl
      | ⟨3, _⟩ => rfl
      | ⟨4, _⟩ => rfl)]
  exact half_apply _ _ W rfl rfl e k j n src (by rw [hsrc]; show _ = 0 + _; omega)

/-- An up column of tile `j`. -/
theorem wgu_up (W : S8x2048x11264.Idx → α) (e : Fin 8) (k : Fin 2048) (j : Fin 11) (n : Fin 512)
    (col src : Fin 11264) (hcol : col.val = j.val * 1024 + 512 + n.val) (hsrc : src.val = 5632 + (j.val * 512 + n.val)) :
    wgu W (ix3 e k col) = W (ix3 e k src) := by
  rw [wgu_unflatten W e k j (1 : Fin 2) n col (by rw [hcol]; show _ = j.val * 1024 + 1 * 512 + n.val; omega)]
  rw [concatenate_pair_apply_right 3 _ _ concatenates_S8x2048x11x1x512_S8x2048x11x1x512_S8x2048x11x2x512_d3
    (ix5 e k j (1 : Fin 2) n) rfl rfl (ix5 e k j (0 : Fin 1) n) (fun b hb => by
      match b with
      | ⟨0, _⟩ => rfl
      | ⟨1, _⟩ => rfl
      | ⟨2, _⟩ => rfl
      | ⟨3, _⟩ => exact absurd rfl hb
      | ⟨4, _⟩ => rfl) (by rfl)]
  exact half_apply _ _ W rfl rfl e k j n src (by rw [hsrc]; rfl)

end Cert.KernelIdeal.Interleave

end
-- ==== Proof.Blocks.lean ====
/-
  The blocks a grid point reads, as entries of the argument arrays.

  Grid point `t` (of 8 · 4 · 11 = 352, the hidden-tile coordinate fastest) works on token block `t / 11` (512 rows; four
  blocks per expert, so the expert is `t / 44`) and hidden tile `t % 11`. Its three input blocks are

    * rows `512 (t / 11) … + 511` of the tokens `x`;
    * for expert `t / 44`, columns `1024 (t % 11) … + 1023` of the rearranged gate/up weights — tile `t % 11`'s gate
      columns then its up columns (Interleave);
    * for expert `t / 44`, rows `512 (t % 11) … + 511` of the down-projection `w2`.

  The conversions to the narrower float format that precede the grid do not change an extended real.
-/
import proofs.«112218_j58772332479042_2_alg».proof.Proof.Gen.KernelIdeal.Frame
import proofs.«112218_j58772332479042_2_alg».proof.Proof.Interleave
import Idealize.ShloMosaic.Lib.Pipeline.Value
import Idealize.ShloMosaic.Lib.StableHlo.Run
import Idealize.ShloMosaic.Lib.Tactic

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Blocks
open Cert.KernelIdeal Cert.KernelIdeal.Gen Cert.KernelIdeal.Interleave

variable (m : (ℓ : Loc nD τ sig) → Buf (Elt Ideal) ℓ)

/-! ## Which block each window is on, decided once over the grid -/

theorem idx_x : ∀ t : Fin cfg0.N, win0_0.index t 0 = t.val / 11 ∧ win0_0.index t 1 = 0 :=
  (by decide +kernel : ∀ t : Fin grid0.N, win0_0.index t 0 = t.val / 11 ∧ win0_0.index t 1 = 0)
theorem idx_wgu : ∀ t : Fin cfg0.N, win0_1.index t 0 = t.val / 44 ∧ win0_1.index t 1 = 0 ∧ win0_1.index t 2 = t.val % 11 :=
  (by decide +kernel : ∀ t : Fin grid0.N, win0_1.index t 0 = t.val / 44 ∧ win0_1.index t 1 = 0 ∧ win0_1.index t 2 = t.val % 11)
theorem idx_w2 : ∀ t : Fin cfg0.N, win0_2.index t 0 = t.val / 44 ∧ win0_2.index t 1 = t.val % 11 ∧ win0_2.index t 2 = 0 :=
  (by decide +kernel : ∀ t : Fin grid0.N, win0_2.index t 0 = t.val / 44 ∧ win0_2.index t 1 = t.val % 11 ∧ win0_2.index t 2 = 0)
theorem idx_out : ∀ t : Fin cfg0.N, win0_3.index t 0 = t.val / 11 ∧ win0_3.index t 1 = 0 :=
  (by decide +kernel : ∀ t : Fin grid0.N, win0_3.index t 0 = t.val / 11 ∧ win0_3.index t 1 = 0)

/-! ## The arrays the grid reads, from the argument arrays -/

/-- The tokens as the grid reads them: converted to the narrower format, which changes no extended real. -/
theorem V_x (c : Dev nD) : (V m c main_v0 : S16384x2048.Idx → EReal) = m ((c.tc : Thread nD τ).loc main_arg0) := by
  show StableHlo.after hostOps0 (fun b => m (c, b)) (Proc.devRef .tc main_v0) = _
  after_results; rfl

/-- The down-projection as the grid reads it. -/
theorem V_w2 (c : Dev nD) : (V m c main_v1 : S8x5632x2048.Idx → EReal) = m ((c.tc : Thread nD τ).loc main_arg4) := by
  show StableHlo.after hostOps0 (fun b => m (c, b)) (Proc.devRef .tc main_v1) = _
  after_results; rfl

/-- The gate/up weights as the grid reads them: rearranged tile by tile. -/
theorem V_wgu (c : Dev nD) : (V m c main_v10 : S8x2048x11264.Idx → EReal) = wgu (m ((c.tc : Thread nD τ).loc main_arg3)) := by
  show StableHlo.after hostOps0 (fun b => m (c, b)) (Proc.devRef .tc main_v10) = _
  after_results; rfl

/-! ## The blocks -/

/-- Row `r` of the token block of point `t` is row `512 (t / 11) + r` of the tokens. -/
theorem blk_x (c : Dev nD) (t : Fin cfg0.N) (r : Fin 512) (k : Fin 2048) (row : Fin 16384)
    (hrow : row.val = t.val / 11 * 512 + r.val) :
    (iblk m c 0 t : Vec Ideal S512x2048 .bf16) (ix2 r k) = m ((c.tc : Thread nD τ).loc main_arg0) (ix2 row k) := by
  unfold iblk
  rw [View.read_apply, cast_eq]
  show (V m c main_v0 : S16384x2048.Idx → EReal) _ = _
  rw [V_x]
  refine congrArg (m ((c.tc : Thread nD τ).loc main_arg0)) (funext fun a => Fin.ext ?_)
  match a with
  | ⟨0, _⟩ => show win0_0.index t 0 * 512 + 1 * r.val = row.val; rw [(idx_x t).1, hrow]; omega
  | ⟨1, _⟩ => show win0_0.index t 1 * 2048 + 1 * k.val = k.val; rw [(idx_x t).2]; omega

/-- Column `cc` of the weight block of point `t` is column `1024 (t % 11) + cc` of expert `t / 44`'s rearranged weights. -/
theorem blk_wgu (c : Dev nD) (t : Fin cfg0.N) (k : Fin 2048) (cc : Fin 1024) (e : Fin 8) (col : Fin 11264)
    (he : e.val = t.val / 44) (hcol : col.val = t.val % 11 * 1024 + cc.val) :
    (iblk m c 1 t : Vec Ideal S1x2048x1024 .bf16) (ix3 (0 : Fin 1) k cc)
      = wgu (m ((c.tc : Thread nD τ).loc main_arg3)) (ix3 e k col) := by
  unfold iblk
  rw [View.read_apply, cast_eq]
  show (V m c main_v10 : S8x2048x11264.Idx → EReal) _ = _
  rw [V_wgu]
  generalize wgu (m ((c.tc : Thread nD τ).loc main_arg3)) = Wg
  refine congrArg Wg (funext fun a => Fin.ext ?_)
  match a with
  | ⟨0, _⟩ => show win0_1.index t 0 * 1 + 1 * 0 = e.val; rw [(idx_wgu t).1, he]; omega
  | ⟨1, _⟩ => show win0_1.index t 1 * 2048 + 1 * k.val = k.val; rw [(idx_wgu t).2.1]; omega
  | ⟨2, _⟩ => show win0_1.index t 2 * 1024 + 1 * cc.val = col.val; rw [(idx_wgu t).2.2, hcol]; omega

/-- Row `n` of the down-projection block of point `t` is row `512 (t % 11) + n` of expert `t / 44`'s down-projection. -/
theorem blk_w2 (c : Dev nD) (t : Fin cfg0.N) (n : Fin 512) (d : Fin 2048) (e : Fin 8) (hrow : Fin 5632)
    (he : e.val = t.val / 44) (hh : hrow.val = t.val % 11 * 512 + n.val) :
    (iblk m c 2 t : Vec Ideal S1x512x2048 .bf16) (ix3 (0 : Fin 1) n d)
      = m ((c.tc : Thread nD τ).loc main_arg4) (ix3 e hrow d) := by
  unfold iblk
  rw [View.read_apply, cast_eq]
  show (V m c main_v1 : S8x5632x2048.Idx → EReal) _ = _
  rw [V_w2]
  refine congrArg (m ((c.tc : Thread nD τ).loc main_arg4)) (funext fun a => Fin.ext ?_)
  match a with
  | ⟨0, _⟩ => show win0_2.index t 0 * 1 + 1 * 0 = e.val; rw [(idx_w2 t).1, he]; omega
  | ⟨1, _⟩ => show win0_2.index t 1 * 512 + 1 * n.val = hrow.val; rw [(idx_w2 t).2.1, hh]; omega
  | ⟨2, _⟩ => show win0_2.index t 2 * 2048 + 1 * d.val = d.val; rw [(idx_w2 t).2.2]; omega

end Cert.KernelIdeal.Blocks
end
-- ==== Proof.Accum.lean ====
/-
  The accumulator after each grid point.

  Points `11 b, 11 b + 1, …, 11 b + 10` work on token block `b` and hidden tiles `0 … 10` in turn. After point
  `t = 11 b + j` the accumulator holds, at row `r` and column `d`, the contributions of the tiles `0 … j` to
  `out[512 b + r, d]`: it starts at zero plus tile 0's contribution, and each later point adds its tile's. After tile 10 it
  holds the whole sum, which that point also copies to the output block. The proof is an induction on the point; the
  three cases of the body (first, middle, last tile) each add one tile's contribution.
-/
import proofs.«112218_j58772332479042_2_alg».proof.Proof.Pieces
import proofs.«112218_j58772332479042_2_alg».proof.Proof.Payload
import proofs.«112218_j58772332479042_2_alg».proof.Proof.Blocks

set_option maxRecDepth 16384

noncomputable section
open Idealize.ShloMosaic Idealize.ShloMosaic.TcCoe Idealize.SL.Sem Idealize.ShloMosaic.ValueIdx
open Idealize.ShloMosaic.Pipeline (Dat)

namespace Cert.KernelIdeal.Accum
open Cert.KernelIdeal Cert.KernelIdeal.Gen Cert.KernelIdeal.Interleave Cert.KernelIdeal.Blocks Cert.KernelIdeal.Payload
open Cert.Ffn Cert.TileSum

variable (m : (ℓ : Loc nD τ sig) → Buf (Elt Ideal) ℓ)

/-- The three float arguments the layer reads, on core `c`. -/
abbrev X (c : Dev nD) : S16384x2048.Idx → EReal := m ((c.tc : Thread nD τ).loc main_arg0)
abbrev W13 (c : Dev nD) : S8x2048x11264.Idx → EReal := m ((c.tc : Thread nD τ).loc main_arg3)
abbrev W2 (c : Dev nD) : S8x5632x2048.Idx → EReal := m ((c.tc : Thread nD τ).loc main_arg4)

theorem N352 : cfg0.N = 352 := N_0

/-- Row `r` of point `t`'s token block, as a token. -/
def rowOf (t : Fin cfg0.N) (r : Fin 512) : Fin 16384 :=
  ⟨t.val / 11 * 512 + r.val, by have := lt_of_lt_of_eq t.isLt N352; have := r.isLt; omega⟩
/-- Point `t`'s hidden tile. -/
def tileOf (t : Fin cfg0.N) : Fin 11 := ⟨t.val % 11, Nat.mod_lt _ (by norm_num)⟩

/-- Point `t`'s three input blocks, as arrays of extended reals. -/
abbrev bx (c : Dev nD) (t : Fin cfg0.N) : S512x2048.Idx → EReal := iblk m c 0 t
abbrev bw (c : Dev nD) (t : Fin cfg0.N) : S1x2048x1024.Idx → EReal := iblk m c 1 t
abbrev bd (c : Dev nD) (t : Fin cfg0.N) : S1x512x2048.Idx → EReal := iblk m c 2 t

/-- What point `t` adds at `(r, d)`, computed from its three blocks, is its tile's contribution to the layer's output. -/
theorem tile_contrib (c : Dev nD) (t : Fin cfg0.N) (r : Fin 512) (d : Fin 2048) :
    (∑ n : Fin 512, act
        (∑ k : Fin 2048, bx m c t (ix2 r k) * bw m c t (ix3 (0 : Fin 1) k (gHalf n)))
        (∑ k : Fin 2048, bx m c t (ix2 r k) * bw m c t (ix3 (0 : Fin 1) k (uHalf n)))
        * bd m c t (ix3 (0 : Fin 1) n d))
      = tileTerm (X m c) (W13 m c) (W2 m c) (rowOf t r) d (tileOf t) := by
  have hN := lt_of_lt_of_eq t.isLt N352
  have hr := r.isLt
  have he : (expertOf (rowOf t r)).val = t.val / 44 := by
    show (t.val / 11 * 512 + r.val) / 2048 = t.val / 44
    omega
  unfold tileTerm term gate up
  refine Finset.sum_congr rfl fun n _ => ?_
  have hn := n.isLt
  have hx : ∀ k : Fin 2048, bx m c t (ix2 r k) = X m c (ix2 (rowOf t r) k) :=
    fun k => blk_x m c t r k (rowOf t r) rfl
  have hg : ∀ k : Fin 2048, bw m c t (ix3 (0 : Fin 1) k (gHalf n))
      = W13 m c (ix3 (expertOf (rowOf t r)) k (gateCol (tileIdx tiles (tileOf t) n))) := fun k =>
    (blk_wgu m c t k (gHalf n) (expertOf (rowOf t r)) (⟨t.val % 11 * 1024 + n.val, by omega⟩ : Fin 11264) he rfl).trans
      (wgu_gate (W13 m c) (expertOf (rowOf t r)) k (tileOf t) n _ _ rfl rfl)
  have hu : ∀ k : Fin 2048, bw m c t (ix3 (0 : Fin 1) k (uHalf n))
      = W13 m c (ix3 (expertOf (rowOf t r)) k (upCol (tileIdx tiles (tileOf t) n))) := fun k =>
    (blk_wgu m c t k (uHalf n) (expertOf (rowOf t r)) (⟨t.val % 11 * 1024 + (512 + n.val), by omega⟩ : Fin 11264) he rfl).trans
      (wgu_up (W13 m c) (expertOf (rowOf t r)) k (tileOf t) n _ _
        (by show t.val % 11 * 1024 + (512 + n.val) = t.val % 11 * 1024 + 512 + n.val; omega) rfl)
  have hw : bd m c t (ix3 (0 : Fin 1) n d)
      = W2 m c (ix3 (expertOf (rowOf t r)) (tileIdx tiles (tileOf t) n) d) :=
    blk_w2 m c t n d (expertOf (rowOf t r)) (tileIdx tiles (tileOf t) n) he rfl
  exact congrArg₂ (· * ·)
    (congrArg₂ act (Finset.sum_congr rfl fun k _ => congrArg₂ (· * ·) (hx k) (hg k))
      (Finset.sum_congr rfl fun k _ => congrArg₂ (· * ·) (hx k) (hu k))) hw

/-- The contributions of the eleven tiles to `out[token of (t, r), d]`. -/
abbrev D (c : Dev nD) (t : Fin cfg0.N) (r : Fin 512) (d : Fin 2048) : Fin 11 → EReal :=
  fun j => tileTerm (X m c) (W13 m c) (W2 m c) (rowOf t r) d j

/-- One step: a point that is not a block's first adds its tile's contribution to what the point before left. -/
theorem step (c : Dev nD) (n : ℕ) (hn : n + 1 < cfg0.N) (h0 : ¬(n + 1) % 11 = 0) (r : Fin 512) (d : Fin 2048)
    (prev : Vec Ideal S512x2048 .f32)
    (ih : prev (ix2 r d) = upTo (D m c ⟨n, Nat.lt_of_succ_lt hn⟩ r d) (n % 11)) :
    k0_pay2 (F := Ideal) (iblk m c 0 ⟨n + 1, hn⟩) (iblk m c 1 ⟨n + 1, hn⟩) (iblk m c 2 ⟨n + 1, hn⟩) prev (ix2 r d)
      = upTo (D m c ⟨n + 1, hn⟩ r d) ((n + 1) % 11) := by
  refine (upd_apply (iblk m c 0 ⟨n + 1, hn⟩) (iblk m c 1 ⟨n + 1, hn⟩) (iblk m c 2 ⟨n + 1, hn⟩) prev r d).trans ?_
  rw [ih, tile_contrib m c ⟨n + 1, hn⟩ r d]
  have hrow : rowOf ⟨n, Nat.lt_of_succ_lt hn⟩ r = rowOf ⟨n + 1, hn⟩ r :=
    Fin.ext (by show n / 11 * 512 + r.val = (n + 1) / 11 * 512 + r.val; omega)
  have hmod : (n + 1) % 11 = n % 11 + 1 := by omega
  have hlt : n % 11 + 1 < 11 := by omega
  have hD : D m c ⟨n, Nat.lt_of_succ_lt hn⟩ r d = D m c ⟨n + 1, hn⟩ r d := by
    funext j; show tileTerm _ _ _ (rowOf _ r) d j = tileTerm _ _ _ (rowOf _ r) d j; rw [hrow]
  rw [hD, hmod, upTo_succ _ _ hlt]
  exact congrArg (upTo (D m c ⟨n + 1, hn⟩ r d) (n % 11) + ·)
    (congrArg (D m c ⟨n + 1, hn⟩ r d) (Fin.ext hmod))

/-- THE INVARIANT: after point `n` the accumulator holds, at `(r, d)`, the contributions of the tiles `0 … n % 11`. -/
theorem scratch_eq (c : Dev nD) : ∀ (n : ℕ) (hn : n < cfg0.N) (r : Fin 512) (d : Fin 2048),
    (outsAt0 m c n hn).2 (ix2 r d) = upTo (D m c ⟨n, hn⟩ r d) (n % 11)
  | n, hn, r, d => by
    by_cases h0 : n % 11 = 0
    · -- a block's first tile: zero, then tile 0's contribution
      have h1 : ¬n % 11 = 10 := by omega
      rw [outsAt0_A m c ⟨n, hn⟩ h0 h1]
      dsimp only
      refine (congrFun (Pieces.acc_first (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) scM0_0 (Memref.isWhole_whole _)
        ((hcond0_0 ⟨n, hn⟩).mpr h0) (fun h => h1 ((hcond0_1 ⟨n, hn⟩).mp h))
        (iblk m c 0 ⟨n, hn⟩) (iblk m c 1 ⟨n, hn⟩) (iblk m c 2 ⟨n, hn⟩)) (ix2 r d)).trans ?_
      refine (upd_apply (iblk m c 0 ⟨n, hn⟩) (iblk m c 1 ⟨n, hn⟩) (iblk m c 2 ⟨n, hn⟩) (k0_pay1 (F := Ideal)) r d).trans ?_
      rw [zero_apply, zero_add, tile_contrib m c ⟨n, hn⟩ r d, h0, upTo_zero _ (by norm_num)]
      exact congrArg (D m c ⟨n, hn⟩ r d) (Fin.ext h0)
    · obtain ⟨k, rfl⟩ : ∃ k, n = k + 1 := ⟨n - 1, by omega⟩
      have ih := scratch_eq c k (Nat.lt_of_succ_lt hn) r d
      by_cases h1 : (k + 1) % 11 = 10
      · rw [outsAt0_C m c ⟨k + 1, hn⟩ h0 h1]
        dsimp only
        refine (congrFun (Pieces.acc_last (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _)
          (fun h => h0 ((hcond0_0 ⟨k + 1, hn⟩).mp h)) ((hcond0_1 ⟨k + 1, hn⟩).mpr h1)
          (iblk m c 0 ⟨k + 1, hn⟩) (iblk m c 1 ⟨k + 1, hn⟩) (iblk m c 2 ⟨k + 1, hn⟩)
          (outsAt0 m c k (Nat.lt_of_succ_lt hn)).2) (ix2 r d)).trans ?_
        exact step m c k hn h0 r d _ ih
      · rw [outsAt0_B m c ⟨k + 1, hn⟩ h0 h1]
        dsimp only
        refine (congrFun (Pieces.acc_mid (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _)
          (fun h => h0 ((hcond0_0 ⟨k + 1, hn⟩).mp h)) (fun h => h1 ((hcond0_1 ⟨k + 1, hn⟩).mp h))
          (iblk m c 0 ⟨k + 1, hn⟩) (iblk m c 1 ⟨k + 1, hn⟩) (iblk m c 2 ⟨k + 1, hn⟩)
          (outsAt0 m c k (Nat.lt_of_succ_lt hn)).2) (ix2 r d)).trans ?_
        exact step m c k hn h0 r d _ ih

/-- At a block's last tile the output block holds the layer's output for the block's tokens. -/
theorem out_pt (c : Dev nD) (t : Fin cfg0.N) (h1 : t.val % 11 = 10) (r : Fin 512) (d : Fin 2048) :
    (outsAt0 m c t.val t.isLt).1 (ix2 r d) = out (X m c) (W13 m c) (W2 m c) (ix2 (rowOf t r) d) := by
  obtain ⟨n, hn⟩ := t
  have h1' : n % 11 = 10 := h1
  have h0 : ¬n % 11 = 0 := by omega
  obtain ⟨k, rfl⟩ : ∃ k, n = k + 1 := ⟨n - 1, by omega⟩
  rw [outsAt0_C m c ⟨k + 1, hn⟩ h0 h1']
  dsimp only
  refine (congrFun (Pieces.out_last (F := Ideal) c (grid0.coords ⟨k + 1, hn⟩) (ms0_0 ⟨k + 1, hn⟩) (hs0_0 ⟨k + 1, hn⟩) (ms0_1 ⟨k + 1, hn⟩) (hs0_1 ⟨k + 1, hn⟩) (ms0_2 ⟨k + 1, hn⟩) (hs0_2 ⟨k + 1, hn⟩) (ms0_3 ⟨k + 1, hn⟩) (hs0_3 ⟨k + 1, hn⟩) scM0_0 (Memref.isWhole_whole _)
    (fun h => h0 ((hcond0_0 ⟨k + 1, hn⟩).mp h)) ((hcond0_1 ⟨k + 1, hn⟩).mpr h1')
    (iblk m c 0 ⟨k + 1, hn⟩) (iblk m c 1 ⟨k + 1, hn⟩) (iblk m c 2 ⟨k + 1, hn⟩)
    (outsAt0 m c k (Nat.lt_of_succ_lt hn)).2) (ix2 r d)).trans ?_
  refine (step m c k hn h0 r d _ (scratch_eq m c k (Nat.lt_of_succ_lt hn) r d)).trans ?_
  rw [upTo_last _ _ (by omega : 11 ≤ (k + 1) % 11 + 1)]
  exact (out_eq_tiles (X m c) (W13 m c) (W2 m c) (ix2 (rowOf ⟨k + 1, hn⟩ r) d)).symm

end Cert.KernelIdeal.Accum
end
-- ==== Proof.KValue.lean ====
/-
  The kernel's two results as functions of the argument arrays.

  The first result is written back block by block: at each token block's last hidden tile (points `11 b + 10`) the
  output block `b` — rows `512 b … 512 b + 511` — is written with the accumulated sums, which are the layer's output for
  those tokens. The 32 blocks tile the [16384, 2048] array, so after the grid the array is the layer's output. The
  second result is computed after the grid from the routing scores alone: their mean over each group of 2048.
-/
import proofs.«112218_j58772332479042_2_alg».proof.Proof.Accum
import Idealize.ShloMosaic.Lib.Pipeline.Value
import Idealize.ShloMosaic.Lib.StableHlo.Run

set_option maxRecDepth 16384

noncomputable section
open Idealize.ShloMosaic Idealize.ShloMosaic.TcCoe Idealize.SL.Sem Idealize.ShloMosaic.ValueIdx
open Idealize.ShloMosaic.Pipeline (Dat)

namespace Cert.KernelIdeal.KValue
open Cert.KernelIdeal Cert.KernelIdeal.Gen Cert.KernelIdeal.Blocks Cert.KernelIdeal.Accum Cert.Ffn

variable (m : (ℓ : Loc nD τ sig) → Buf (Elt Ideal) ℓ) (ρ : Dev nD → PrngReg)

/-- The first result: the layer's output of the three float arguments. -/
abbrev result (c : Dev nD) : S16384x2048.Idx → EReal := out (X m c) (W13 m c) (W2 m c)

/-- The mean of the scores over each group of 2048, as the host operations after the grid compute it. -/
def groupMean (ts : S16384.Idx → Ideal .f32) : S8.Idx → Ideal .f32 :=
  Host.divf (Host.reduceAdd (shapeCast S8x2048 ts shapeCasts_S16384_S8x2048 : FVec Ideal S8x2048 .f32)
      (constant S_ .f32 0x00000000#32) reducesTo_S8x2048_S8_d1 h_S_)
    (broadcastInDim S8 ![] bcast_S_S8 (constant S_ .f32 0x45000000#32))

/-- What a last-tile point writes back is its block of the layer's output. -/
theorem flushed_eq (c : Dev nD) (t : Fin cfg0.N) (hf : (cfg0.win 3).flush t = true) :
    (dats m 0 c).flushed 3 t = ((cfg0.win 3).blk t).view.read (Elt Ideal) (result m c) := by
  have h1 : t.val % 11 = 10 := (flush0_3 t).mp hf
  have hN := lt_of_lt_of_eq t.isLt N352
  have key : ∀ (r : Fin 512) (d : Fin 2048),
      (outsAt0 m c t.val t.isLt).1 (ix2 r d) = result m c (((cfg0.win 3).blk t).view.emb (ix2 r d)) := fun r d => by
    rw [out_pt m c t h1 r d]
    refine congrArg (result m c) (funext fun a => Fin.ext ?_)
    match a with
    | ⟨0, _⟩ => show t.val / 11 * 512 + r.val = win0_3.index t 0 * 512 + 1 * r.val; rw [(idx_out t).1]; omega
    | ⟨1, _⟩ => show d.val = win0_3.index t 1 * 2048 + 1 * d.val; rw [(idx_out t).2]; omega
  show (cfg0.win 3).cut (grid0.coords t) ((dats m 0 c).after 3 t) = _
  rw [after0_3]
  funext j
  show (outsAt0 m c t.val t.isLt).1 j = result m c (((cfg0.win 3).blk t).view.emb j)
  have ej : (j : S512x2048.Idx) = ix2 (j 0) (j 1) := eq_ix2 j
  rw [ej]
  exact key (j 0) (j 1)

/-- An index of the array is in point `t`'s output block iff each coordinate is in the block's range. -/
theorem mem_blk (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v11).slice (win0_3.rect t)).set ↔ _
  rw [View.set_slice_whole, Rect.mem_set_unit]
  exact Iff.rfl

/-- Every row lies in the block written at its token block's last tile. -/
theorem cover (i : S16384x2048.Idx) :
    ∃ t : Fin cfg0.N, (cfg0.win 3).flush t = true ∧ i ∈ ((cfg0.win 3).blk t).view.set := by
  have h0 : (i 0).val < 16384 := (i 0).isLt
  have h1 : (i 1).val < 2048 := (i 1).isLt
  have ht : (i 0).val / 512 * 11 + 10 < cfg0.N := by rw [N352]; omega
  refine ⟨⟨(i 0).val / 512 * 11 + 10, ht⟩, (flush0_3 _).mpr (by show ((i 0).val / 512 * 11 + 10) % 11 = 10; omega), ?_⟩
  rw [mem_blk]
  intro a
  match a with
  | ⟨0, _⟩ =>
    show win0_3.index ⟨(i 0).val / 512 * 11 + 10, ht⟩ 0 * 512 ≤ (i 0).val
      ∧ (i 0).val < win0_3.index ⟨(i 0).val / 512 * 11 + 10, ht⟩ 0 * 512 + 512
    rw [(idx_out ⟨(i 0).val / 512 * 11 + 10, ht⟩).1]
    show ((i 0).val / 512 * 11 + 10) / 11 * 512 ≤ (i 0).val ∧ (i 0).val < ((i 0).val / 512 * 11 + 10) / 11 * 512 + 512
    omega
  | ⟨1, _⟩ =>
    show win0_3.index ⟨(i 0).val / 512 * 11 + 10, ht⟩ 1 * 2048 ≤ (i 1).val
      ∧ (i 1).val < win0_3.index ⟨(i 0).val / 512 * 11 + 10, ht⟩ 1 * 2048 + 2048
    rw [(idx_out ⟨(i 0).val / 512 * 11 + 10, ht⟩).2]
    omega

/-- After the grid the first result's array holds the layer's output. -/
theorem final (c : Dev nD) : (dats m 0 c).arrAt 3 cfg0.N = result m c :=
  (dats m 0 c).arrAt_eq_of_cover 3 (result m c) (flushed_eq m c) cover

/-- The second result: the host operations after the grid read only the scores, which nothing has written. -/
theorem tail_eq (c : Dev nD) :
    Pipeline.afterTail₀ cfgs (dats m) 0 (V0 m) [hostOps1] c main_v15
      = groupMean (m ((c.tc : Thread nD τ).loc main_arg2)) := by
  unfold Pipeline.afterTail₀
  show StableHlo.after hostOps1 _ (Proc.devRef .tc main_v15) = _
  after_results
  rw [Pipeline.withArrays_of_ne _ c (V0 m c) _ main_arg2 (by exact (by decide : ∀ w, Pipeline.arrRef spec0 w ≠ main_arg2))]
  have e : V0 m c (Proc.devRef .tc main_arg2) = m ((c.tc : Thread nD τ).loc main_arg2) := V_main_arg2 m c
  rw [e]
  rfl

/-- The run, read: both results as functions of the arguments, the arguments unchanged. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_v15) = groupMean (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).1 3).trans (final m c),
      ((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KValue
end
-- ==== Proof.RefSpec.lean ====
/-
  The reference computes the layer's output.

  The reference reshapes the tokens to [8, 2048, 2048] (expert, token in group, feature), multiplies each expert's
  group by its gate/up weights, splits the product into its gate half and its up half, applies `silu` — spelt as
  `g * (1 / (1 + exp(-g)))` — to the gate half, multiplies by the up half, multiplies by the expert's down-projection
  and reshapes back to [16384, 2048]. Token `T` sits at (T / 2048, T % 2048) of the grouped arrays, so entry `(T, d)` of
  the result is exactly `out[T, d]` of the specification: the same sums over the same entries of the arguments.
-/
import proofs.«112218_j58772332479042_2_alg».proof.Proof.Gen.ReferenceIdeal.Read
import proofs.«112218_j58772332479042_2_alg».proof.Proof.Spec

noncomputable section

namespace Cert.ReferenceIdeal.RefSpec

open Idealize.ShloMosaic Idealize.ShloMosaic.ValueIdx Cert.ReferenceIdeal Cert.ReferenceIdeal.Gen Cert.ReferenceIdeal.Read Cert.Ffn

/-- `silu(a) * b` as the reference spells it, entry by entry. -/
theorem silu_mul_apply (a b : FVec Ideal S8x2048x5632 .f32) (J : S8x2048x5632.Idx) :
    mulf (mulf a (Host.divf (broadcastInDim S8x2048x5632 ![] bcast_S_S8x2048x5632 (constant S_ .f32 0x3F800000#32))
        (addf (broadcastInDim S8x2048x5632 ![] bcast_S_S8x2048x5632 (constant S_ .f32 0x3F800000#32)) (Host.exp (Host.negf a))))) b J
      = act (a J) (b J) := by
  show a J * Ideal.div (Ideal.ofBits .f32 0x3F800000#32) (Ideal.ofBits .f32 0x3F800000#32 + Ideal.exp (-(a J))) * b J = _
  exact act_spelt _ _

variable (x0 : S16384x2048.Idx → EReal) (x3 : S8x2048x11264.Idx → EReal) (x4 : S8x5632x2048.Idx → EReal)

/-- The gated hidden activations are `silu` of the gate half times the up half. -/
theorem v5_eq : val_main_v5 (F := Ideal) x0 x3
    = (mulf (mulf (val_main_v2 (F := Ideal) x0 x3 : FVec Ideal S8x2048x5632 .f32) (Host.divf (broadcastInDim S8x2048x5632 ![] bcast_S_S8x2048x5632 (constant S_ .f32 0x3F800000#32))
        (addf (broadcastInDim S8x2048x5632 ![] bcast_S_S8x2048x5632 (constant S_ .f32 0x3F800000#32)) (Host.exp (Host.negf (val_main_v2 (F := Ideal) x0 x3 : FVec Ideal S8x2048x5632 .f32))))))
      (val_main_v3 (F := Ideal) x0 x3 : FVec Ideal S8x2048x5632 .f32) : FVec Ideal S8x2048x5632 .f32) := rfl

/-- Where token `T`, hidden index `h` sit in the grouped arrays. -/
abbrev grouped (T : Fin 16384) (d : Fin 2048) (h : Fin 5632) : S8x2048x5632.Idx :=
  lidx_main_v6 (idx_main_v7 (ix2 T d)) h

theorem tok_idx (T : Fin 16384) (d : Fin 2048) (h : Fin 5632) (k : Fin 2048) (col : S8x2048x11264.Idx)
    (hc0 : (col 0).val = T.val / 2048) (hc1 : (col 1).val = T.val % 2048) :
    idx_main_v0 (lidx_main_v1 col k) = ix2 T k := by
  have hT := T.isLt; have hk := k.isLt
  funext a
  apply Fin.ext
  match a with
  | ⟨0, _⟩ => show (((col 0).val * 2048 + (col 1).val) * 2048 + k.val) / 2048 = T.val; rw [hc0, hc1]; omega
  | ⟨1, _⟩ => show (((col 0).val * 2048 + (col 1).val) * 2048 + k.val) % 2048 = k.val; rw [hc0, hc1]; omega

theorem grouped0 (T : Fin 16384) (d : Fin 2048) (h : Fin 5632) : ((grouped T d h) 0).val = T.val / 2048 := by
  have hT := T.isLt; have hd := d.isLt
  show (T.val * 2048 + d.val) / 4194304 = T.val / 2048
  omega
theorem grouped1 (T : Fin 16384) (d : Fin 2048) (h : Fin 5632) : ((grouped T d h) 1).val = T.val % 2048 := by
  have hT := T.isLt; have hd := d.isLt
  show (T.val * 2048 + d.val) / 2048 % 2048 = T.val % 2048
  omega

theorem gate_w_idx (T : Fin 16384) (d : Fin 2048) (h : Fin 5632) (k : Fin 2048) :
    ridx_main_v1 (idx_main_v2 (grouped T d h)) k = ix3 (expertOf T) k (gateCol h) := by
  funext a
  apply Fin.ext
  match a with
  | ⟨0, _⟩ => exact grouped0 T d h
  | ⟨1, _⟩ => rfl
  | ⟨2, _⟩ => rfl

theorem up_w_idx (T : Fin 16384) (d : Fin 2048) (h : Fin 5632) (k : Fin 2048) :
    ridx_main_v1 (idx_main_v3 (grouped T d h)) k = ix3 (expertOf T) k (upCol h) := by
  funext a
  apply Fin.ext
  match a with
  | ⟨0, _⟩ => exact grouped0 T d h
  | ⟨1, _⟩ => rfl
  | ⟨2, _⟩ => rfl

theorem down_w_idx (T : Fin 16384) (d : Fin 2048) (h : Fin 5632) :
    ridx_main_v6 (idx_main_v7 (ix2 T d)) h = ix3 (expertOf T) h d := by
  have hT := T.isLt; have hd := d.isLt
  funext a
  apply Fin.ext
  match a with
  | ⟨0, _⟩ => exact grouped0 T d h
  | ⟨1, _⟩ => rfl
  | ⟨2, _⟩ => show (T.val * 2048 + d.val) % 2048 = d.val; omega

/-- The gate half at the grouped position is `gate`. -/
theorem gate_eq (T : Fin 16384) (d : Fin 2048) (h : Fin 5632) :
    val_main_v2 (F := Ideal) x0 x3 (grouped T d h) = gate x0 x3 T h := by
  rw [val_main_v2_apply, val_main_v1_apply]
  unfold gate
  refine Finset.sum_congr rfl fun k _ => ?_
  rw [val_main_v0_apply, tok_idx T d h k (idx_main_v2 (grouped T d h)) (grouped0 T d h) (grouped1 T d h), gate_w_idx]

/-- The up half at the grouped position is `up`. -/
theorem up_eq (T : Fin 16384) (d : Fin 2048) (h : Fin 5632) :
    val_main_v3 (F := Ideal) x0 x3 (grouped T d h) = up x0 x3 T h := by
  rw [val_main_v3_apply, val_main_v1_apply]
  unfold up
  refine Finset.sum_congr rfl fun k _ => ?_
  rw [val_main_v0_apply, tok_idx T d h k (idx_main_v3 (grouped T d h)) (grouped0 T d h) (grouped1 T d h), up_w_idx]

/-- The reference's first result is the layer's output. -/
theorem ref_eq_out : val_main_v7 (F := Ideal) x0 x3 x4 = out x0 x3 x4 := by
  funext i
  obtain ⟨T, d, rfl⟩ : ∃ (T : Fin 16384) (d : Fin 2048), i = ix2 T d := ⟨i 0, i 1, eq_ix2 i⟩
  rw [val_main_v7_apply, val_main_v6_apply]
  unfold out
  show ∑ h : Fin 5632, _ = ∑ h : Fin 5632, term x0 x3 x4 T d h
  refine Finset.sum_congr rfl fun h _ => ?_
  unfold term
  rw [v5_eq, silu_mul_apply, down_w_idx]
  show act (val_main_v2 (F := Ideal) x0 x3 (grouped T d h)) (val_main_v3 (F := Ideal) x0 x3 (grouped T d h)) * _ = _
  rw [gate_eq, up_eq]

end Cert.ReferenceIdeal.RefSpec

end
-- ==== Proof.lean ====
/-
  A balanced mixture-of-experts feed-forward layer: the tiled kernel against the plain reference, over the extended reals.

  Both programs take tokens `x` [16384, 2048] sorted by expert in eight groups of 2048, gate/up weights `w13`
  [8, 2048, 11264], down-projection weights `w2` [8, 5632, 2048] and routing scores [16384], and return

      out[T, d] = Σ_h silu(x[T] · w13[e][:, h]) * (x[T] · w13[e][:, 5632 + h]) * w2[e][h, d],   e = T / 2048,

  and the mean of the scores over each group. The kernel walks a grid of (expert, token block of 512, hidden tile of 512):
  at each point it forms the tile's gate and up products in one matrix product against the interleaved weight columns,
  gates them, multiplies by the tile's rows of `w2` and adds the result to an accumulator that is zeroed at a block's first
  tile and copied to the output at its last. The reference does two whole matrix products per expert. Over the extended
  reals the two agree entry by entry: a change of float format is the identity, a matrix product is the plain sum over the
  contracted coordinate, `silu` is the same function in both spellings, and the kernel's sum over `h` is the reference's
  sum regrouped into eleven tiles — commutativity and associativity of addition only, so the finiteness of the inputs is
  never used. The group means are computed by the same host operations in both programs.
-/
import proofs.«112218_j58772332479042_2_alg».proof.Defs
import proofs.«112218_j58772332479042_2_alg».proof.Proof.Gen.Kernel
import proofs.«112218_j58772332479042_2_alg».proof.Proof.Gen.Kernel.Skeleton
import proofs.«112218_j58772332479042_2_alg».proof.Proof.Gen.Kernel.Launch
import proofs.«112218_j58772332479042_2_alg».proof.Proof.Gen.Kernel.Points
import proofs.«112218_j58772332479042_2_alg».proof.Proof.Gen.Kernel.Frame
import proofs.«112218_j58772332479042_2_alg».proof.Proof.Gen.KernelIdeal
import proofs.«112218_j58772332479042_2_alg».proof.Proof.Gen.KernelIdeal.Skeleton
import proofs.«112218_j58772332479042_2_alg».proof.Proof.Gen.KernelIdeal.Launch
import proofs.«112218_j58772332479042_2_alg».proof.Proof.Gen.KernelIdeal.Points
import proofs.«112218_j58772332479042_2_alg».proof.Proof.Gen.KernelIdeal.Frame
import proofs.«112218_j58772332479042_2_alg».proof.Proof.Gen.ReferenceIdeal
import proofs.«112218_j58772332479042_2_alg».proof.Proof.Gen.Pre_finite_inputs
import proofs.«112218_j58772332479042_2_alg».proof.Proof.Gen.ReferenceIdeal.Run
import proofs.«112218_j58772332479042_2_alg».proof.Proof.Gen.ReferenceIdeal.Read
import proofs.«112218_j58772332479042_2_alg».proof.Proof.KValue
import proofs.«112218_j58772332479042_2_alg».proof.Proof.RefSpec
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ
/-- So does the kernel read over the extended reals. -/
theorem frame_ki : Cert.frame_KernelIdeal := fun m ρ _ => Cert.KernelIdeal.Gen.frame m ρ
/-- So does the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing was rewritten when the kernel was read over the extended reals. -/
theorem preserves : Cert.preserves_Kernel_KernelIdeal := trivial

/-- From arguments that agree, the kernel's two result arrays end at the layer's output and the group means of its
    arguments, and the reference's at the same two functions of its own. -/
theorem algebraic : Cert.algebraic_KernelIdeal_ReferenceIdeal := by
  intro m ρ m' ρ' _ hagree
  refine ⟨fun c => Cert.KernelIdeal.KValue.result m c,
    fun c => Cert.KernelIdeal.KValue.groupMean (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v7_eq, Cert.ReferenceIdeal.RefSpec.ref_eq_out,
      (hagree c).1, (hagree c).2.2.2.1, (hagree c).2.2.2.2]
  · rw [(hagree c).2.2.1]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
